-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩
abbrev S16384 : Shape := ⟨1, ![16384]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  reducesTo_S16384x2048_S16384_d1 : S16384x2048.ReducesTo [1] S16384
  bcast_S_S16384 : S_.BroadcastsInDim S16384 (![] : Fin 0 → Fin S16384.rank)
  reducesTo_S16384_S_d0 : S16384.ReducesTo [0] S_

variable [Facts]

def fn_part1 {F : FTy → Type} [FloatOps F] (main_v14 : IVec S_ 1) (main_v15 : FVec F S16384x2048 .f32) (main_cst_5 : FVec F S_ .f32) : IVec S_ 1 :=
  let main_v16 : FVec F S16384 .f32 := (fun x v => Host.reduceAdd x v reducesTo_S16384x2048_S16384_d1 h_S_) main_v15 main_cst_5
  let main_cst_6 : FVec F S_ .f32 := constant S_ .f32 0x00000000#32
  let main_v17 : FVec F S16384 .f32 := broadcastInDim S16384 ![] bcast_S_S16384 main_cst_6
  let main_v18 : IVec S16384 1 := cmpf .ogt main_v16 main_v17
  let main_c_7 : IVec S_ 1 := constantI S_ 1 1#1
  let main_v19 : IVec S_ 1 := (fun x v => Host.reduce IntOp.andi x v reducesTo_S16384_S_d0 h_S_) main_v18 main_c_7
  let main_v20 : IVec S_ 1 := andi main_v14 main_v19
  main_v20

def fn {F : FTy → Type} [FloatOps F] (main_arg0 : FVec F S16384x2048 .f32) (main_arg1 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := mulf main_arg0 main_arg0
  let main_cst_2 : FVec F S_ .f32 := constant S_ .f32 0x00000000#32
  let main_v10 : FVec F S16384 .f32 := (fun x v => Host.reduceAdd x v reducesTo_S16384x2048_S16384_d1 h_S_) main_v9 main_cst_2
  let main_cst_3 : FVec F S_ .f32 := constant S_ .f32 0x00000000#32
  let main_v11 : FVec F S16384 .f32 := broadcastInDim S16384 ![] bcast_S_S16384 main_cst_3
  let main_v12 : IVec S16384 1 := cmpf .ogt main_v10 main_v11
  let main_c_4 : IVec S_ 1 := constantI S_ 1 1#1
  let main_v13 : IVec S_ 1 := (fun x v => Host.reduce IntOp.andi x v reducesTo_S16384_S_d0 h_S_) main_v12 main_c_4
  let main_v14 : IVec S_ 1 := andi main_v8 main_v13
  let main_v15 : FVec F S16384x2048 .f32 := mulf main_arg1 main_arg1
  let main_cst_5 : FVec F S_ .f32 := constant S_ .f32 0x00000000#32
  fn_part1 (F := F) main_v14 main_v15 main_cst_5
-- ==== Kernel.lean ====
abbrev S16384x2048 : Shape := ⟨2, ![16384, 2048]⟩
abbrev S32x1x1 : Shape := ⟨3, ![32, 1, 1]⟩
abbrev S512x2048 : Shape := ⟨2, ![512, 2048]⟩
abbrev S1x1x1 : Shape := ⟨3, ![1, 1, 1]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S32x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1x1, .f32⟩
  | .local _ .vmem, ⟨5, _⟩ => ⟨S1x1x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S32x1x1_S_d0_1_2 : S32x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S32x1x1.size a
  hwx0_2 : ∀ i : grid0.Coords, EltTy.bits .f32 = 32 ∨ (Rect.block (s := S32x1x1) S1x1x1.size (cc0_transform_2 i) (hinb0_2 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S_, .f32⟩
  | .hbm, ⟨18, _⟩ => ⟨S16384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩

abbrev nD : Nat := 1
abbrev τ : Topo := Topo.v7x

variable {F : FTy → Type} [FloatOps F]

class Facts₀ : Prop where
  reducesTo_S16384x2048_S16384_d1 : S16384x2048.ReducesTo [1] S16384
  h_S_ : 0 < S_.numel
  bcast_S16384_S16384x1_0 : S16384.BroadcastsInDim S16384x1 (![0] : Fin 1 → Fin S16384x1.rank)
  bcast_S16384x1_S16384x2048_0_1 : S16384x1.BroadcastsInDim S16384x2048 (![0, 1] : Fin 2 → Fin S16384x2048.rank)
  reducesTo_S16384_S_d0 : S16384.ReducesTo [0] S_

variable [Facts₀]

class Facts : Prop extends Facts₀ where

variable [Facts]
-- ==== Proof.Algebra.lean ====
/-
  The mathematics of the cosine loss, with no program in sight.

  For two arrays of 16384 rows of 2048 extended reals, one program forms per row
    (sum of c*e) * rsqrt (sum of c*c) * rsqrt (sum of e*e),
  adds these row cosines 512 rows at a time, adds the 32 partial sums, divides by 16384 and subtracts from 1; the other
  divides every entry by the square root of its row's sum of squares, multiplies entrywise, sums each row, sums the
  rows, divides by 16384 and subtracts from 1.  When every entry is a real number and every row has a positive sum of
  squares, both row quantities are the real number  (sum of c*e) / (sqrt C * sqrt E),  and a sum of sums over 32 tiles
  of 512 rows is the sum over the 16384 rows.
-/
import Idealize.ShloMosaic.PureOps.Ideal
import Idealize.ShloMosaic.PureOps.Ideal.Laws
import Idealize.ShloMosaic.Lib.ValueIdx

noncomputable section

namespace Cert.Cosine

open Idealize.ShloMosaic Idealize.ShloMosaic.ValueIdx
open scoped BigOperators

/-- The inclusion of the reals in the extended reals commutes with finite sums. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- One row's cosine, arranged as a dot product times the two reciprocal square roots of the squared norms. -/
def kcos {K : ℕ} (c e : Fin K → EReal) : EReal :=
  ((∑ k, c k * e k) * Ideal.rsqrt (∑ k, c k * c k)) * Ideal.rsqrt (∑ k, e k * e k)

/-- One row's cosine, arranged as the sum of the products of the entries each divided by its row's norm. -/
def rcos {K : ℕ} (c e : Fin K → EReal) : EReal :=
  0 + ∑ k, Ideal.div (e k) (Ideal.sqrt (0 + ∑ k', e k' * e k')) * Ideal.div (c k) (Ideal.sqrt (0 + ∑ k', c k' * c k'))

/-- On real rows of positive squared norm the two arrangements are the same real number: each quotient is a product
    with the reciprocal of a nonzero real root, and the common factor leaves the sum. -/
theorem rcos_eq_kcos {K : ℕ} (c e : Fin K → ℝ) (hc : 0 < ∑ k, c k * c k) (he : 0 < ∑ k, e k * e k) :
    rcos (fun k => (c k : EReal)) (fun k => (e k : EReal)) = kcos (fun k => (c k : EReal)) (fun k => (e k : EReal)) := by
  unfold rcos kcos
  have sq : ∀ f g : Fin K → ℝ, (∑ k, (f k : EReal) * (g k : EReal)) = ((∑ k, f k * g k : ℝ) : EReal) := by
    intro f g; rw [coe_sum]; exact Finset.sum_congr rfl fun k _ => (EReal.coe_mul _ _).symm
  rw [sq c c, sq e e, sq c e]
  have hsC : Real.sqrt (∑ k, c k * c k) ≠ 0 := (Real.sqrt_pos.2 hc).ne'
  have hsE : Real.sqrt (∑ k, e k * e k) ≠ 0 := (Real.sqrt_pos.2 he).ne'
  simp only [zero_add, Ideal.sqrt_coe, Ideal.rsqrt_coe, if_neg (not_lt.2 hc.le), if_neg (not_lt.2 he.le),
    if_neg hc.ne', if_neg he.ne', Ideal.div_coe hsC, Ideal.div_coe hsE, ← EReal.coe_mul]
  rw [← coe_sum]
  refine congrArg (fun x : ℝ => (x : EReal)) ?_
  rw [Finset.sum_mul, Finset.sum_mul]
  refine Finset.sum_congr rfl fun k _ => ?_
  rw [one_div, one_div]; ring

/-- One minus the mean of 16384 numbers whose sum is `S`, the two literals kept as the words the programs carry. -/
def lossOf (S : EReal) : EReal :=
  Ideal.ofBits .f32 0x3F800000#32 - Ideal.div S (Ideal.ofBits .f32 0x46800000#32)

/-- A sum over 32 tiles of 512 consecutive rows is the sum over the 16384 rows. -/
theorem sum_tiles {M : Type} [AddCommMonoid M] (f : Fin 16384 → M) :
    ∑ t : Fin 32, ∑ p : Fin 512, f ⟨t.val * 512 + p.val, by have := t.isLt; have := p.isLt; omega⟩ = ∑ r : Fin 16384, f r := by
  rw [← Fintype.sum_prod_type (f := fun x : Fin 32 × Fin 512 => f ⟨x.1.val * 512 + x.2.val, by have := x.1.isLt; have := x.2.isLt; omega⟩)]
  refine Fintype.sum_equiv (finProdFinEquiv (m := 32) (n := 512)) _ _ (fun x => congrArg f (Fin.ext ?_))
  show x.1.val * 512 + x.2.val = x.2.val + 512 * x.1.val
  omega

/-- Row `r` of a 16384 by 2048 array. -/
def rowOf (x : (⟨2, ![16384, 2048]⟩ : Shape).Idx → EReal) (r : Fin 16384) : Fin 2048 → EReal := fun k => x (ix2 r k)

/-- The sum over the indices of a [32,1,1] array is the sum over its first coordinate. -/
theorem sum_idx_32x1x1 {M : Type} [AddCommMonoid M] (f : (⟨3, ![32, 1, 1]⟩ : Shape).Idx → M) :
    ∑ i, f i = ∑ t : Fin 32, f (ix3 t 0 0) := by
  refine Fintype.sum_equiv ⟨fun i => i 0, fun t => ix3 t 0 0, fun i => ?_, fun _ => rfl⟩ _ _ (fun i => ?_)
  · funext a; match a with
    | ⟨0, _⟩ => rfl
    | ⟨1, _⟩ => exact Subsingleton.elim (α := Fin 1) _ _
    | ⟨2, _⟩ => exact Subsingleton.elim (α := Fin 1) _ _
  · show f i = f (ix3 (i 0) 0 0)
    refine congrArg f (funext fun a => ?_)
    match a with
    | ⟨0, _⟩ => rfl
    | ⟨1, _⟩ => exact Subsingleton.elim (α := Fin 1) _ _
    | ⟨2, _⟩ => exact Subsingleton.elim (α := Fin 1) _ _

/-- The sum over the indices of a [16384] array is the sum over its coordinate. -/
theorem sum_idx_16384 {M : Type} [AddCommMonoid M] (f : (⟨1, ![16384]⟩ : Shape).Idx → M) :
    ∑ j, f j = ∑ r : Fin 16384, f (ix1 r) := by
  refine Fintype.sum_equiv ⟨fun j => j 0, fun r => ix1 r, fun j => (eq_ix1 j).symm, fun _ => rfl⟩ _ _ (fun j => ?_)
  exact congrArg f (eq_ix1 j)

/-- The 32 partial sums: entry `(t, 0, 0)` is the sum of the row cosines (dot product times reciprocal roots) of the
    512 rows of tile `t`. -/
def partials (x0 x1 : (⟨2, ![16384, 2048]⟩ : Shape).Idx → EReal) : (⟨3, ![32, 1, 1]⟩ : Shape).Idx → EReal :=
  fun i => ∑ p : Fin 512,
    kcos (rowOf x0 ⟨(i 0).val * 512 + p.val, by have h : (i 0).val < 32 := (i 0).isLt; have := p.isLt; omega⟩)
         (rowOf x1 ⟨(i 0).val * 512 + p.val, by have h : (i 0).val < 32 := (i 0).isLt; have := p.isLt; omega⟩)

/-- What one program ends with: the 32 partial sums, added, averaged and subtracted from one. -/
def tiledLoss (x0 x1 : (⟨2, ![16384, 2048]⟩ : Shape).Idx → EReal) : EReal :=
  lossOf (0 + ∑ i : (⟨3, ![32, 1, 1]⟩ : Shape).Idx, partials x0 x1 i)

/-- What the other ends with: the row cosines (sums of products of normalised entries), added, averaged and
    subtracted from one. -/
def rowLoss (x0 x1 : (⟨2, ![16384, 2048]⟩ : Shape).Idx → EReal) : EReal :=
  lossOf (0 + ∑ j : (⟨1, ![16384]⟩ : Shape).Idx, rcos (rowOf x0 (j 0)) (rowOf x1 (j 0)))

/-- On arrays of real entries whose every row has a positive sum of squares the two are equal: row by row the
    cosines agree, and the tiles exhaust the rows. -/
theorem tiledLoss_eq_rowLoss (x0 x1 : (⟨2, ![16384, 2048]⟩ : Shape).Idx → EReal)
    (h0 : ∀ i, ∃ r : ℝ, x0 i = r) (h1 : ∀ i, ∃ r : ℝ, x1 i = r)
    (p0 : ∀ r : Fin 16384, (0 : EReal) < ∑ k : Fin 2048, x0 (ix2 r k) * x0 (ix2 r k))
    (p1 : ∀ r : Fin 16384, (0 : EReal) < ∑ k : Fin 2048, x1 (ix2 r k) * x1 (ix2 r k)) :
    tiledLoss x0 x1 = rowLoss x0 x1 := by
  choose c hc using h0
  choose e he using h1
  have row_eq : ∀ r : Fin 16384, kcos (rowOf x0 r) (rowOf x1 r) = rcos (rowOf x0 r) (rowOf x1 r) := by
    intro r
    have e0 : rowOf x0 r = fun k => ((c (ix2 r k) : ℝ) : EReal) := funext fun k => hc _
    have e1 : rowOf x1 r = fun k => ((e (ix2 r k) : ℝ) : EReal) := funext fun k => he _
    have q0 : 0 < ∑ k : Fin 2048, c (ix2 r k) * c (ix2 r k) := by
      have := p0 r
      simp only [hc] at this
      rw [← EReal.coe_zero] at this
      simp only [← EReal.coe_mul] at this
      rw [← coe_sum] at this
      exact_mod_cast this
    have q1 : 0 < ∑ k : Fin 2048, e (ix2 r k) * e (ix2 r k) := by
      have := p1 r
      simp only [he] at this
      rw [← EReal.coe_zero] at this
      simp only [← EReal.coe_mul] at this
      rw [← coe_sum] at this
      exact_mod_cast this
    rw [e0, e1]
    exact (rcos_eq_kcos _ _ q0 q1).symm
  unfold tiledLoss rowLoss
  refine congrArg lossOf (congrArg (fun S : EReal => 0 + S) ?_)
  rw [sum_idx_32x1x1, sum_idx_16384]
  rw [← sum_tiles (fun r => rcos (rowOf x0 r) (rowOf x1 r))]
  refine Finset.sum_congr rfl fun t _ => ?_
  show ∑ p : Fin 512, _ = _
  refine Finset.sum_congr rfl fun p _ => ?_
  exact row_eq _

end Cert.Cosine

end
-- ==== Proof.RefValue.lean ====
/-
  The reference program's result, read one operation at a time, is the row form of the cosine loss: each row's
  entries divided by the root of the row's sum of squares, the two normalised rows multiplied entrywise and summed,
  the 16384 row sums added, divided by 16384 and subtracted from one.  The only work is to see that every operation
  reads its operand at the row index `(j 0)` and the column index `k`.
-/
import proofs.«158696_j17540646437710_2_alg».proof.Proof.Gen.ReferenceIdeal.Read
import proofs.«158696_j17540646437710_2_alg».proof.Proof.Algebra

noncomputable section

namespace Cert.ReferenceIdeal.RefValue

open Cert.ReferenceIdeal Cert.ReferenceIdeal.Gen Cert.ReferenceIdeal.Read
open Idealize.ShloMosaic Idealize.ShloMosaic.ValueIdx Cert.Cosine
open scoped BigOperators

/-- Row `j` of the entrywise product of the two normalised arrays, summed: the row's cosine in the reference's
    arrangement.  The norm of a row is read at the row's own index whatever the column. -/
theorem row_eq (x0 x1 : FVec Ideal S16384x2048 .f32) (j : S16384.Idx) :
    val_main_v7 (F := Ideal) x0 x1 j = rcos (rowOf x0 (j 0)) (rowOf x1 (j 0)) := by
  rw [val_main_v7_apply]
  unfold rcos
  simp only [val_main_cst_apply, Ideal.ofBits_def, Ideal.ofBits_zero_f32]
  refine congrArg (fun S : EReal => 0 + S) (Finset.sum_congr rfl fun k _ => ?_)
  have e7 : idx_main_v7 j k = ix2 (j 0) k :=
    funext fun a => by match a with | ⟨0, _⟩ => rfl | ⟨1, _⟩ => rfl
  have ea : ∀ k' : Fin 2048, idx_main_call0_v1 (idx_main_call0_v2 (idx_main_v1 (idx_main_v7 j k))) k' = ix2 (j 0) k' :=
    fun k' => funext fun a => by match a with | ⟨0, _⟩ => rfl | ⟨1, _⟩ => rfl
  have eb : ∀ k' : Fin 2048, idx_main_call1_v1 (idx_main_call1_v2 (idx_main_v4 (idx_main_v7 j k))) k' = ix2 (j 0) k' :=
    fun k' => funext fun a => by match a with | ⟨0, _⟩ => rfl | ⟨1, _⟩ => rfl
  rw [val_main_v6_apply, val_main_v2_apply, val_main_v5_apply, val_main_v1_apply, val_main_v4_apply,
    val_main_v0_apply, val_main_v3_apply, val_main_call0_v2_apply, val_main_call1_v2_apply,
    val_main_call0_v1_apply, val_main_call1_v1_apply]
  simp only [val_main_call0_v0_apply, val_main_call1_v0_apply, val_main_call0_cst_apply, val_main_call1_cst_apply,
    Ideal.mulf_def, Ideal.hostDivf_def, Ideal.hostUnary_sqrt_def, Ideal.ofBits_def, Ideal.ofBits_zero_f32, ea, eb, e7]
  rfl

/-- The reference's result is the row form of the loss. -/
theorem ref_eq (x0 x1 : FVec Ideal S16384x2048 .f32) :
    val_main_v10 (F := Ideal) x0 x1 = fun _ => rowLoss x0 x1 := by
  funext i
  rw [val_main_v10_apply, val_main_v9_apply, val_main_v8_apply]
  simp only [row_eq, val_main_cst_2_apply, val_main_cst_1_apply, val_main_cst_0_apply, Ideal.subf_def,
    Ideal.hostDivf_def, Ideal.ofBits_def, Ideal.ofBits_zero_f32]
  rfl

end Cert.ReferenceIdeal.RefValue

end
-- ==== Proof.Payload.lean ====
/-
  What the kernel body computes from one pair of 512 by 2048 blocks, read at the ideal values: the single entry it
  stores is the sum over the block's 512 rows of the row cosine
    (sum of c*e) * rsqrt (sum of c*c) * rsqrt (sum of e*e).
  Each lane sum is a sum over the 2048 columns of a row; the casts between [512] and [512,1], and between [1], [1,1]
  and [1,1,1], keep the row-major position, so they move no value.
-/
import proofs.«158696_j17540646437710_2_alg».proof.Proof.Gen.KernelIdeal.Skeleton
import proofs.«158696_j17540646437710_2_alg».proof.Proof.Algebra
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx Cert.Cosine
open scoped BigOperators

/-- A row's lane sum, viewed as a column: at row `p` it is the sum over the columns of that row. -/
theorem rowsum (v : FVec Ideal S512x2048 .f32) (p : Fin 512) (q : Fin 1) :
    shapeCast S512x1 (multiReduction .add [1] S512 v 0x00000000#32 reduces_S512x2048_S512 (.inl rfl) rfl)
        shapeCasts_S512_S512x1 (ix2 p q)
      = ∑ k : Fin 2048, v (ix2 p k) :=
  (shapeCast_apply _ shapeCasts_S512_S512x1 (ix2 p q) (ix1 p) (by
      rw [Shape.rowMajor_val_one, Shape.rowMajor_val_two]
      show p.val = p.val * 1 + q.val
      have := q.isLt; omega)).trans
    ((Ideal.multiReduction_add_single v 0x00000000#32 reduces_S512x2048_S512 (.inl rfl) rfl (ix1 p)).trans
      (Finset.sum_congr rfl fun k _ => congrArg v (funext fun a => by match a with | ⟨0, _⟩ => rfl | ⟨1, _⟩ => rfl)))

/-- The body's one stored entry: the block's 512 row cosines, added. -/
theorem pay_eq (x0 x1 : FVec Ideal S512x2048 .f32) (j : S1x1x1.Idx) :
    k0_pay1 (F := Ideal) x0 x1 j = ∑ p : Fin 512, kcos (fun k => x0 (ix2 p k)) (fun k => x1 (ix2 p k)) := by
  unfold k0_pay1
  dsimp only
  refine (shapeCast_apply _ shapeCasts_S1x1_S1x1x1 j (ix2 (0 : Fin 1) (0 : Fin 1)) ?_).trans ?_
  · rw [Shape.rowMajor_val_two, Shape.rowMajor_val_three]
    have h0 : (j 0).val < 1 := (j 0).isLt
    have h1 : (j 1).val < 1 := (j 1).isLt
    have h2 : (j 2).val < 1 := (j 2).isLt
    show 0 * 1 + 0 = ((j 0).val * 1 + (j 1).val) * 1 + (j 2).val
    omega
  refine (shapeCast_apply _ shapeCasts_S1_S1x1 (ix2 (0 : Fin 1) (0 : Fin 1)) (ix1 (0 : Fin 1)) ?_).trans ?_
  · rw [Shape.rowMajor_val_one, Shape.rowMajor_val_two]; rfl
  refine (Ideal.multiReduction_add_single _ _ reduces_S512x1_S1 _ _ (ix1 (0 : Fin 1))).trans ?_
  show ∑ p : Fin 512, _ = _
  refine Finset.sum_congr rfl fun p _ => ?_
  have hl : reduces_S512x1_S1.lift (ix1 (0 : Fin 1)) p = ix2 p (0 : Fin 1) :=
    funext fun a => by match a with | ⟨0, _⟩ => rfl | ⟨1, _⟩ => rfl
  rw [hl]
  exact congrArg₂ (fun a b : EReal => a * b)
    (congrArg₂ (fun a b : EReal => a * b) (rowsum (mulf x0 x1) p 0) (congrArg Ideal.rsqrt (rowsum (mulf x0 x0) p 0)))
    (congrArg Ideal.rsqrt (rowsum (mulf x1 x1) p 0))

end Cert.KernelIdeal.Payload

end
-- ==== Proof.Blocks.lean ====
/-
  From the blocks to the array of partial sums.  Grid point `t` of 32 reads rows `512 t … 512 t + 511` of each
  argument and writes back the one entry `(t, 0, 0)` of the [32,1,1] result: the sum of those rows' cosines.  The 32
  entries are all of that array, so after the region it is the array of partial sums of the two arguments.
-/
import proofs.«158696_j17540646437710_2_alg».proof.Proof.Gen.KernelIdeal.Frame
import proofs.«158696_j17540646437710_2_alg».proof.Proof.Payload
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Cosine
open scoped BigOperators

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: at point `t` each input window is at block row `t`, block column 0, and the
    output window at block `(t, 0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Entry `(p, k)` of the first argument's block at point `t` is entry `(512 t + p, k)` of the argument. -/
theorem iblk0_apply (c : Dev nD) (t : Fin cfg0.N) (p : Fin 512) (k : Fin 2048) (r : Fin 16384)
    (hr : r.val = t.val * 512 + p.val) :
    (iblk m c 0 t : FVec Ideal S512x2048 .f32) (ix2 p k) = (V m c main_arg0 : S16384x2048.Idx → EReal) (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 512 + 1 * p.val = r.val; rw [e0, hr]; omega
  | ⟨1, _⟩ => show win0_0.index t 1 * 2048 + 1 * k.val = k.val; rw [e1]; omega

/-- The same for the second argument. -/
theorem iblk1_apply (c : Dev nD) (t : Fin cfg0.N) (p : Fin 512) (k : Fin 2048) (r : Fin 16384)
    (hr : r.val = t.val * 512 + p.val) :
    (iblk m c 1 t : FVec Ideal S512x2048 .f32) (ix2 p k) = (V m c main_arg1 : S16384x2048.Idx → EReal) (ix2 r k) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t 0 * 512 + 1 * p.val = r.val; rw [e0, hr]; omega
  | ⟨1, _⟩ => show win0_1.index t 1 * 2048 + 1 * k.val = k.val; rw [e1]; omega

/-- What point `t` writes back is block `t` of the array of partial sums of the arguments as the region finds them. -/
theorem flushed_eq (c : Dev nD) (t : Fin cfg0.N) :
    (dats m 0 c).flushed 2 t
      = ((cfg0.win 2).blk t).view.read (Elt Ideal) (partials (V m c main_arg0) (V m c main_arg1)) := by
  show (cfg0.win 2).cut (grid0.coords t) ((dats m 0 c).after 2 t) = _
  rw [after0_2]
  unfold out0_2
  rw [View.canon_unit_zero hz3]
  simp only [View.ld_unit_zero (S := S512x2048) hz2]
  obtain ⟨-, -, -, -, e4, -, -⟩ := idx_facts t
  funext j
  show k0_pay1 (iblk m c 0 t) (iblk m c 1 t) j
    = partials (V m c main_arg0) (V m c main_arg1) (((cfg0.win 2).blk t).view.emb j)
  refine (Payload.pay_eq (iblk m c 0 t) (iblk m c 1 t) j).trans ?_
  unfold partials
  refine Finset.sum_congr rfl fun p _ => ?_
  have hr : ((((cfg0.win 2).blk t).view.emb j) 0).val = t.val := by
    show win0_2.index t 0 * 1 + 1 * (j 0).val = t.val
    have : (j 0).val < 1 := (j 0).isLt
    rw [e4]; omega
  refine congrArg₂ (kcos (K := 2048)) (funext fun k => ?_) (funext fun k => ?_)
  · exact iblk0_apply m c t p k _ (congrArg (fun n => n * 512 + p.val) hr)
  · exact iblk1_apply m c t p k _ (congrArg (fun n => n * 512 + p.val) hr)

/-- An index of the result array is in point `t`'s block iff each coordinate is in the block's range on its axis. -/
theorem mem_blk (t : Fin cfg0.N) (i : S32x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v0).slice (win0_2.rect t)).set ↔ _
  rw [View.set_slice_whole, Rect.mem_set_unit]
  exact Iff.rfl

/-- After the region the result array is the array of partial sums: entry `(t, 0, 0)` is point `t`'s block. -/
theorem final (c : Dev nD) :
    (dats m 0 c).arrAt 2 cfg0.N = partials (V m c main_arg0) (V m c main_arg1) :=
  (dats m 0 c).arrAt_eq_of_cover 2 _ (fun t _ => flushed_eq m c t) fun i => by
    have hi0 : (i 0).val < 32 := (i 0).isLt
    have hi1 : (i 1).val < 1 := (i 1).isLt
    have hi2 : (i 2).val < 1 := (i 2).isLt
    obtain ⟨t, ht⟩ : ∃ t : Fin cfg0.N, t.val = (i 0).val := ⟨⟨(i 0).val, lt_of_lt_of_eq hi0 N_0.symm⟩, rfl⟩
    obtain ⟨-, -, -, -, e4, e5, e6⟩ := idx_facts t
    refine ⟨t, flush0_2 t, ?_⟩
    rw [mem_blk]
    intro a
    match a with
    | ⟨0, _⟩ => show win0_2.index t 0 * 1 ≤ (i 0).val ∧ (i 0).val < win0_2.index t 0 * 1 + 1; rw [e4]; omega
    | ⟨1, _⟩ => show win0_2.index t 1 * 1 ≤ (i 1).val ∧ (i 1).val < win0_2.index t 1 * 1 + 1; rw [e5]; omega
    | ⟨2, _⟩ => show win0_2.index t 2 * 1 ≤ (i 2).val ∧ (i 2).val < win0_2.index t 2 * 1 + 1; rw [e6]; omega

end Cert.KernelIdeal.Blocks

end
-- ==== Proof.KernelRun.lean ====
/-
  The idealized kernel's whole run.  After the region the [32,1,1] array holds the partial sums (the blocks
  module); the host lines that follow add its 32 entries from zero, divide by 16384 and subtract from one.  So the
  program ends with the tiled form of the cosine loss of its two arguments, which it leaves unchanged.
-/
import proofs.«158696_j17540646437710_2_alg».proof.Proof.Blocks
import Idealize.ShloMosaic.Lib.StableHlo.Run

set_option maxRecDepth 16384

noncomputable section

namespace Cert.KernelIdeal.KernelRun

open Cert.KernelIdeal Cert.KernelIdeal.Gen Idealize.ShloMosaic Idealize.ShloMosaic.TcCoe Idealize.SL.Sem
open Idealize.ShloMosaic.Pipeline (Dat)
open Idealize.ShloMosaic.ValueIdx Cert.Cosine Idealize.ShloMosaic.StableHlo
open scoped BigOperators

variable (m : (ℓ : Loc nD τ sig) → Buf (Elt Ideal) ℓ) (ρ : Dev nD → PrngReg)

/-- The host's sum of a [32,1,1] array over all its axes, from zero: zero plus the sum of its entries. -/
theorem sum32 (A : FVec Ideal S32x1x1 .f32) (i : S_.Idx) :
    Host.reduceAdd A (constant (F := Ideal) S_ .f32 0x00000000#32) reducesTo_S32x1x1_S_d0_1_2 h_S_ i
      = 0 + ∑ q : S32x1x1.Idx, A q := by
  simp only [Host.reduceAdd, Ideal.hostReduceAdd_def]
  rw [Ideal.hostReduceAdd_total reducesTo_S32x1x1_S_d0_1_2 (fun b => b.elim0)]
  simp only [constant_apply, Ideal.ofBits_zero_f32]

/-- The host's quotient, entry by entry. -/
theorem hostDiv_apply (a b : FVec Ideal S_ .f32) (i : S_.Idx) : Host.divf a b i = Ideal.div (a i) (b i) := rfl

/-- What the lines after the region leave in the result: the tiled loss of the arguments. -/
theorem tail_eq (c : Dev nD) :
    Pipeline.afterTail₀ cfgs (dats m) 0 (V0 m) [hostOps1] c main_v3
      = fun _ => tiledLoss (m ((c : Thread nD τ).loc main_arg0)) (m ((c : Thread nD τ).loc main_arg1)) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.tc.devRef main_v0)
        = partials (V m c main_arg0) (V m c main_arg1)
      from (Pipeline.withArrays_arr spec0 launch0.win.arr_inj c _ _ 2).trans (Blocks.final m c)]
  rw [V_main_arg0, V_main_arg1]
  funext i
  rw [subf_apply, hostDiv_apply, sum32, constant_apply, constant_apply]
  rfl

/-- The result buffer is written by no window: the frame run states it as the later lines leave it. -/
theorem v3_rest : main_v3 ∈ Pipeline.restRefs sig (cfgs 0).spec :=
  Pipeline.mem_restRefs_of main_v3 rfl (by decide)

/-- Every weakly fair execution of the idealized kernel ends with the tiled loss in its result and its arguments
    as they were. -/
theorem run : θ_run defs (onTc (τ := τ) (main (F := Ideal))) ⟨m, fun _ => 0, ρ⟩ fun r => ∀ c : Dev nD,
      r.2.mem ((c.tc : Thread nD τ).loc main_v3)
        = (fun _ => tiledLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 v3_rest).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.KernelRun

end
-- ==== Proof.PreDecode.lean ====
/-
  What the precondition says of two argument arrays at the ideal values: every entry is a real number (its absolute
  value is below +inf), and every row of each array has a positive sum of squares — so the norm the reference divides
  by is not zero.
-/
import proofs.«158696_j17540646437710_2_alg».proof.Pre_finite_inputs
import proofs.«158696_j17540646437710_2_alg».proof.Proof.Gen.Pre_finite_inputs
import proofs.«158696_j17540646437710_2_alg».proof.Proof.Algebra
import Idealize.ShloMosaic.Lib.ReduceAll
import Idealize.ShloMosaic.Lib.Affine
import Idealize.ShloMosaic.PureOps.Ideal.Laws

noncomputable section

namespace Cert.Pre_finite_inputs.Decode

open Cert.Pre_finite_inputs Cert.Pre_finite_inputs.Facts
open Idealize.ShloMosaic Idealize.ShloMosaic.ValueIdx Cert.Cosine
open scoped BigOperators

instance : Subsingleton S_.Idx := ⟨fun a b => funext fun d => d.elim0⟩

/-- A strict comparison that answers 1 holds. -/
theorem lt_of_cmp_olt {x y : EReal} (h : Ideal.cmp .olt x y = 1#1) : x < y := by
  by_contra hn
  have : Ideal.cmp .olt x y = 0#1 := by simp [Ideal.cmp, hn]
  rw [this] at h; exact absurd h (by decide)

theorem lt_of_cmp_ogt {x y : EReal} (h : Ideal.cmp .ogt x y = 1#1) : y < x := by
  by_contra hn
  have : Ideal.cmp .ogt x y = 0#1 := by simp [Ideal.cmp, hn]
  rw [this] at h; exact absurd h (by decide)

/-- The word of +inf denotes the top of the extended reals. -/
theorem ofBits_inf : Ideal.ofBits .f32 0x7F800000#32 = (⊤ : EReal) := by simp [Ideal.ofBits, Ideal.ieee]

/-- An extended real whose absolute value is below +inf is a real number. -/
theorem real_of_abs_lt (x : EReal) (h : max x (-x) < (⊤ : EReal)) : ∃ r : ℝ, x = r := by
  induction x using EReal.rec with
  | bot => simp at h
  | coe r => exact ⟨r, rfl⟩
  | top => simp at h

/-- A row's host sum of squares from zero is the sum over the columns of the squares. -/
theorem rowsq [Facts] (a : FVec Ideal S16384x2048 .f32) (r : Fin 16384) :
    Host.reduceAdd (mulf a a) (constant (F := Ideal) S_ .f32 0x00000000#32) reducesTo_S16384x2048_S16384_d1 h_S_ (ix1 r)
      = ∑ k : Fin 2048, a (ix2 r k) * a (ix2 r k) := by
  have hR : S16384x2048.Reduces [1] S16384 := by decide
  simp only [Host.reduceAdd, Ideal.hostReduceAdd_def]
  rw [Ideal.hostReduceAdd_single reducesTo_S16384x2048_S16384_d1 hR]
  simp only [constant_apply, Ideal.ofBits_zero_f32, zero_add]
  refine Finset.sum_congr rfl fun k _ => ?_
  have e : hR.lift (ix1 r) k = ix2 r k := funext fun a => Fin.ext (by match a with | ⟨0, _⟩ => rfl | ⟨1, _⟩ => rfl)
  rw [e]; rfl

/-- The zero the row sums are compared with. -/
theorem zero_row [Facts] (r : Fin 16384) :
    broadcastInDim S16384 ![] bcast_S_S16384 (constant (F := Ideal) S_ .f32 0x00000000#32) (ix1 r) = 0 := by
  simp only [broadcastInDim, constant, Ideal.ofBits_def, Ideal.ofBits_zero_f32]

/-- The precondition, decoded. -/
theorem decode [Facts] (a0 a1 : FVec Ideal S16384x2048 .f32) (h : fn (F := Ideal) a0 a1 = fun _ => 1#1) :
    (∀ i, ∃ r : ℝ, a0 i = r) ∧ (∀ i, ∃ r : ℝ, a1 i = r)
    ∧ (∀ r : Fin 16384, (0 : EReal) < ∑ k : Fin 2048, a0 (ix2 r k) * a0 (ix2 r k))
    ∧ (∀ r : Fin 16384, (0 : EReal) < ∑ k : Fin 2048, a1 (ix2 r k) * a1 (ix2 r k)) := by
  have h0 := congrFun h ix0
  dsimp only [fn, fn_part1] at h0
  obtain ⟨h123, hD⟩ := IntOp.andi_eq_one.1 h0
  obtain ⟨h12, hC⟩ := IntOp.andi_eq_one.1 h123
  obtain ⟨hA, hB⟩ := IntOp.andi_eq_one.1 h12
  refine ⟨fun i => ?_, fun i => ?_, fun r => ?_, fun r => ?_⟩
  · have e := Host.reduce_andi_all _ _ _ _ _ hA i
    have e' : Ideal.cmp .olt (max (a0 i) (-(a0 i))) (Ideal.ofBits .f32 0x7F800000#32) = 1#1 := e
    rw [ofBits_inf] at e'
    exact real_of_abs_lt _ (lt_of_cmp_olt e')
  · have e := Host.reduce_andi_all _ _ _ _ _ hB i
    have e' : Ideal.cmp .olt (max (a1 i) (-(a1 i))) (Ideal.ofBits .f32 0x7F800000#32) = 1#1 := e
    rw [ofBits_inf] at e'
    exact real_of_abs_lt _ (lt_of_cmp_olt e')
  · have e := Host.reduce_andi_all _ _ _ _ _ hC (ix1 r)
    rw [cmpf_apply, Ideal.cmpf_def, rowsq, zero_row] at e
    exact lt_of_cmp_ogt e
  · have e := Host.reduce_andi_all _ _ _ _ _ hD (ix1 r)
    rw [cmpf_apply, Ideal.cmpf_def, rowsq, zero_row] at e
    exact lt_of_cmp_ogt e

end Cert.Pre_finite_inputs.Decode

end
-- ==== Proof.lean ====
/-
  The cosine loss  1 - mean over 16384 rows of cos(c_r, e_r)  of two 16384 by 2048 arrays, computed two ways.

  The kernel streams 32 tiles of 512 rows; per row it forms
    (sum of c*e) * rsqrt (sum of c*c) * rsqrt (sum of e*e),
  adds the 512 row cosines of a tile into one entry of a [32,1,1] array, and the host lines after the region add
  the 32 entries, divide by 16384 and subtract from one.  The reference divides every entry by the square root of its
  row's sum of squares, multiplies the two normalised arrays entrywise, sums each row, sums the rows, divides by
  16384 and subtracts from one.

  On the extended reals the two disagree where a row is all zeros: there the kernel's row cosine is 0 * (+inf) = 0
  while the reference's quotient 0 / 0 is not a number.  The precondition therefore asks, besides finite entries,
  that every row of each argument have a positive sum of squares — exactly that the norm the reference divides by
  is not zero.  Under it every row cosine is the real number (sum of c*e) / (sqrt C * sqrt E) in both arrangements
  (a quotient by a nonzero real root is a product with its reciprocal, and the common factor leaves the finite sum),
  and the 32 tiles of 512 rows exhaust the 16384 rows, so the two results are equal.

  The three frames are the generated ones (the reference's is its generated run with the result dropped); the
  idealization rewrote nothing, so its statement is trivial.
-/
import proofs.«158696_j17540646437710_2_alg».proof.Defs
import proofs.«158696_j17540646437710_2_alg».proof.Proof.Gen.Kernel
import proofs.«158696_j17540646437710_2_alg».proof.Proof.Gen.Kernel.Frame
import proofs.«158696_j17540646437710_2_alg».proof.Proof.Gen.KernelIdeal
import proofs.«158696_j17540646437710_2_alg».proof.Proof.Gen.KernelIdeal.Frame
import proofs.«158696_j17540646437710_2_alg».proof.Proof.Gen.ReferenceIdeal
import proofs.«158696_j17540646437710_2_alg».proof.Proof.Gen.ReferenceIdeal.Run
import proofs.«158696_j17540646437710_2_alg».proof.Proof.Gen.ReferenceIdeal.Read
import proofs.«158696_j17540646437710_2_alg».proof.Proof.Gen.Pre_finite_inputs
import proofs.«158696_j17540646437710_2_alg».proof.Proof.Algebra
import proofs.«158696_j17540646437710_2_alg».proof.Proof.RefValue
import proofs.«158696_j17540646437710_2_alg».proof.Proof.KernelRun
import proofs.«158696_j17540646437710_2_alg».proof.Proof.PreDecode

noncomputable section

namespace Cert.Proof

open Idealize.ShloMosaic Idealize.ShloMosaic.TcCoe Idealize.SL.Sem Cert.Cosine

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, the kernel ends with the tiled form of the loss and the reference with
    the row form; under the precondition (real entries, rows of positive squared norm) the two forms are equal. -/
theorem algebraic : Cert.algebraic_KernelIdeal_ReferenceIdeal := by
  intro m ρ m' ρ' hpre hagree
  refine ⟨fun c _ => tiledLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v10_eq (F := Ideal) _ _).trans ((Cert.ReferenceIdeal.RefValue.ref_eq _ _).trans ?_)
  rw [(hagree c).1, (hagree c).2]
  obtain ⟨f0, f1, p0, p1⟩ := Cert.Pre_finite_inputs.Decode.decode _ _ (hpre c)
  exact funext fun _ => (tiledLoss_eq_rowLoss _ _ f0 f1 p0 p1).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
